-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S100000x128 .f32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S25000x128 : Shape := ⟨2, ![25000, 128]⟩

abbrev nBuf : Space → Nat
  | .hbm => 12
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1x128, .f32⟩
  | .hbm, ⟨8, _⟩ => ⟨S100000x128, .f32⟩
  | .hbm, ⟨9, _⟩ => ⟨S128x128, .f32⟩
  | .hbm, ⟨10, _⟩ => ⟨S1x128, .f32⟩
  | .hbm, ⟨11, _⟩ => ⟨S100000x128, .f32⟩
  | .local _ .vmem, ⟨0, _⟩ => ⟨S25000x128, .f32⟩
  | .local _ .vmem, ⟨1, _⟩ => ⟨S25000x128, .f32⟩
  | .local _ .vmem, ⟨2, _⟩ => ⟨S128x128, .f32⟩
  | .local _ .vmem, ⟨3, _⟩ => ⟨S1x128, .f32⟩
  | .local _ .vmem, ⟨4, _⟩ => ⟨S25000x128, .f32⟩
  | .local _ .vmem, ⟨5, _⟩ => ⟨S25000x128, .f32⟩
  | .local _ .vmem, ⟨6, _⟩ => ⟨S25000x128, .f32⟩
  | .local _ .vmem, ⟨7, _⟩ => ⟨S25000x128, .f32⟩
  | .local _ .vmem, ⟨8, _⟩ => ⟨S128x128, .f32⟩
  | .local _ .vmem, ⟨9, _⟩ => ⟨S1x128, .f32⟩
  | .local _ .vmem, ⟨10, _⟩ => ⟨S25000x128, .f32⟩
  | .local _ .vmem, ⟨11, _⟩ => ⟨S25000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S25000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S25000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S128x128_S128x128_1_0 : S128x128.Transposes [1, 0] S128x128
  shapeCasts_S128_S1x128 : S128.ShapeCasts S1x128
  inb_S25000x128_S25000x128_0_0 : ∀ a, (![0, 0] : Fin 2 → Nat) a + S25000x128.size a ≤ S25000x128.size a
  h_S25000x128 : 0 < S25000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S25000x128 : S1x128.Broadcasts S25000x128
  dot_S25000x128_S128x128_S25000x128_1_0_0_1_n_n_wf : DotDims.WF S25000x128 S128x128 S25000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x128.size a ≤ S100000x128.size a
  hwx0_0 : ∀ i : grid0.Coords, EltTy.bits .f32 = 32 ∨ (Rect.block (s := S100000x128) S25000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S25000x128.size a ≤ S100000x128.size a
  hwx0_3 : ∀ i : grid0.Coords, EltTy.bits .f32 = 32 ∨ (Rect.block (s := S100000x128) S25000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x128.size a ≤ S100000x128.size a
  hwx1_0 : ∀ i : grid1.Coords, EltTy.bits .f32 = 32 ∨ (Rect.block (s := S100000x128) S25000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S25000x128.size a ≤ S100000x128.size a
  hwx1_3 : ∀ i : grid1.Coords, EltTy.bits .f32 = 32 ∨ (Rect.block (s := S100000x128) S25000x128.size (cc1_transform_3 i) (hinb1_3 i)).WholeWords (EltTy.packing .f32)

variable [Facts₀]

def dot_S25000x128_S128x128_S25000x128_1_0_0_1_n_n : DotDims S25000x128 S128x128 S25000x128 where
  lhsContracting := [1]
  rhsContracting := [0]
  lhsNonContracting := [0]
  rhsNonContracting := [1]
  lhsBatch := []
  rhsBatch := []
  wf := dot_S25000x128_S128x128_S25000x128_1_0_0_1_n_n_wf

abbrev win0_0 : Pipeline.Window sig grid0 :=
  Pipeline.Window.ofSpec (Memref.whole main_arg0) S25000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S25000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S25000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S25000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩

abbrev nBuf : Space → Nat
  | .hbm => 16
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S128x128, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The specification: a linear bridge, row by row.

  For a table `x` (100000×128), weights `w` (128×128) and a bias `b` (128), the bridge is `x · wᵀ + b`:

      linear x w b (i, j) = Σ_{k < 128} x(i, k) · w(j, k)  +  b(j)

  on the extended reals. The kernel is handed the weights already transposed and the bias as a 1×128 row, so its own
  arithmetic is `affine x wt r (i, j) = Σ_k x(i, k) · wt(k, j) + r(0, j)`; with `wt` the transpose of `w` and `r` the
  bias recast as a row, the two are the same function, term by term: nothing is reassociated or distributed.
-/
import Idealize.ShloMosaic.PureOps.Ideal
import Idealize.ShloMosaic.Lib.Pipeline.Value
import Idealize.ShloMosaic.Lib.ValueIdx
import Idealize.ShloMosaic.Lib.ValueLayout

noncomputable section

open scoped BigOperators

namespace Cert.Bridge

open Idealize.ShloMosaic Idealize.ShloMosaic.ValueIdx

abbrev Table : Shape := ⟨2, ![100000, 128]⟩
abbrev Square : Shape := ⟨2, ![128, 128]⟩
abbrev Row : Shape := ⟨2, ![1, 128]⟩
abbrev Bias : Shape := ⟨1, ![128]⟩

/-- `x · wᵀ + b`, entry by entry. -/
def linear (x : Table.Idx → EReal) (w : Square.Idx → EReal) (b : Bias.Idx → EReal) : Table.Idx → EReal :=
  fun i => (∑ k : Fin 128, x (ix2 (i 0) k) * w (ix2 (i 1) k)) + b (ix1 (i 1))

/-- `x · wt + r` with the one row `r` repeated down the table, entry by entry. -/
def affine (x : Table.Idx → EReal) (wt : Square.Idx → EReal) (r : Row.Idx → EReal) : Table.Idx → EReal :=
  fun i => (∑ k : Fin 128, x (ix2 (i 0) k) * wt (ix2 k (i 1))) + r (ix2 (0 : Fin 1) (i 1))

theorem linear_ix2 (x : Table.Idx → EReal) (w : Square.Idx → EReal) (b : Bias.Idx → EReal) (p : Fin 100000) (q : Fin 128) :
    linear x w b (ix2 p q) = (∑ k : Fin 128, x (ix2 p k) * w (ix2 q k)) + b (ix1 q) := rfl

theorem affine_ix2 (x : Table.Idx → EReal) (wt : Square.Idx → EReal) (r : Row.Idx → EReal) (p : Fin 100000) (q : Fin 128) :
    affine x wt r (ix2 p q) = (∑ k : Fin 128, x (ix2 p k) * wt (ix2 k q)) + r (ix2 (0 : Fin 1) q) := rfl

/-- With the weights transposed and the bias recast as a row, the kernel's arithmetic is the bridge. -/
theorem affine_transpose_row (x : Table.Idx → EReal) (w : Square.Idx → EReal) (b : Bias.Idx → EReal)
    (ht : Square.Transposes [1, 0] Square) (hc : Bias.ShapeCasts Row) :
    affine x (transpose Square [1, 0] w ht) (shapeCast Row b hc) = linear x w b := by
  funext i
  obtain ⟨p, q, rfl⟩ : ∃ (p : Fin 100000) (q : Fin 128), i = ix2 p q := ⟨i 0, i 1, eq_ix2 i⟩
  rw [affine_ix2, linear_ix2, shapeCast_a_1a_apply b hc (0 : Fin 1) q]
  exact congrArg (· + b (ix1 q)) (Finset.sum_congr rfl fun k _ => by rw [transpose_ix2_apply w ht k q])

end Cert.Bridge

end
-- ==== Proof.Reference.lean ====
/-
  The reference computes the bridge.

  The reference transposes the weights, takes the host's product of the table with them, repeats the bias down the
  table (through a 1×128 row) and adds. Read one operation at a time at an entry `(p, q)`: the product is the sum over
  `k` of `x(p, k)` times the transposed weights at `(k, q)`, which is `w(q, k)`; the two broadcasts land on `b(q)`. That is
  `linear x w b` at `(p, q)`, for each of the two tables.
-/
import proofs.«168415_g3745211482543_cont_8to1_b_1275_11_alg».proof.Proof.Gen.ReferenceIdeal.Read
import proofs.«168415_g3745211482543_cont_8to1_b_1275_11_alg».proof.Proof.Spec

noncomputable section

open scoped BigOperators

namespace Cert.ReferenceIdeal.RefValue

open Cert.ReferenceIdeal Cert.ReferenceIdeal.Read Idealize.ShloMosaic Idealize.ShloMosaic.ValueIdx

/-- The first result is the bridge of the first table. -/
theorem book_eq (x : (⟨S100000x128, .f32⟩ : BufTy).Contents (Elt Ideal)) (w : (⟨S128x128, .f32⟩ : BufTy).Contents (Elt Ideal))
    (b : (⟨S128, .f32⟩ : BufTy).Contents (Elt Ideal)) :
    val_main_v4 (F := Ideal) x w b = Cert.Bridge.linear x w b := by
  funext i
  obtain ⟨p, q, rfl⟩ : ∃ (p : Fin 100000) (q : Fin 128), i = ix2 p q := ⟨i 0, i 1, eq_ix2 i⟩
  have el : ∀ k : Fin 128, lidx_main_v1 (ix2 p q) k = ix2 p k := fun k =>
    funext fun a => Fin.ext (by match a with | ⟨0, _⟩ => rfl | ⟨1, _⟩ => rfl)
  have er : ∀ k : Fin 128, idx_main_v0 (ridx_main_v1 (ix2 p q) k) = ix2 q k := fun k =>
    funext fun a => Fin.ext (by match a with | ⟨0, _⟩ => rfl | ⟨1, _⟩ => rfl)
  have eb : idx_main_v2 (idx_main_v3 (ix2 p q)) = ix1 q :=
    funext fun a => Fin.ext (by match a with | ⟨0, _⟩ => rfl)
  rw [val_main_v4_apply, val_main_v1_apply, val_main_v3_apply, val_main_v2_apply, eb, Cert.Bridge.linear_ix2]
  exact congrArg (· + b (ix1 q)) (Finset.sum_congr rfl fun k _ => by rw [val_main_v0_apply, el, er])

/-- The second result is the bridge of the second table. -/
theorem movie_eq (x : (⟨S100000x128, .f32⟩ : BufTy).Contents (Elt Ideal)) (w : (⟨S128x128, .f32⟩ : BufTy).Contents (Elt Ideal))
    (b : (⟨S128, .f32⟩ : BufTy).Contents (Elt Ideal)) :
    val_main_v9 (F := Ideal) x w b = Cert.Bridge.linear x w b := by
  funext i
  obtain ⟨p, q, rfl⟩ : ∃ (p : Fin 100000) (q : Fin 128), i = ix2 p q := ⟨i 0, i 1, eq_ix2 i⟩
  have el : ∀ k : Fin 128, lidx_main_v6 (ix2 p q) k = ix2 p k := fun k =>
    funext fun a => Fin.ext (by match a with | ⟨0, _⟩ => rfl | ⟨1, _⟩ => rfl)
  have er : ∀ k : Fin 128, idx_main_v5 (ridx_main_v6 (ix2 p q) k) = ix2 q k := fun k =>
    funext fun a => Fin.ext (by match a with | ⟨0, _⟩ => rfl | ⟨1, _⟩ => rfl)
  have eb : idx_main_v7 (idx_main_v8 (ix2 p q)) = ix1 q :=
    funext fun a => Fin.ext (by match a with | ⟨0, _⟩ => rfl)
  rw [val_main_v9_apply, val_main_v6_apply, val_main_v8_apply, val_main_v7_apply, eb, Cert.Bridge.linear_ix2]
  exact congrArg (· + b (ix1 q)) (Finset.sum_congr rfl fun k _ => by rw [val_main_v5_apply, el, er])

end Cert.ReferenceIdeal.RefValue

end
-- ==== Proof.KernelRun.lean ====
/-
  The kernel's run with its two result tables named.

  The program is four segments: two host operations (transpose the first weights, recast the first bias as a row), the
  first bridge's pipeline, the same two host operations for the second bridge, the second pipeline. Every weakly fair
  execution runs them in order and terminates; at the end each unscoped buffer of a core holds the last boundary's
  contents `W4`. Read at the two result tables and at the six arguments, that is the statement below: the results at
  `W4` (which the next module opens), the arguments as launched.
-/
import proofs.«168415_g3745211482543_cont_8to1_b_1275_11_alg».proof.Proof.Gen.KernelIdeal.Frame

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the two result tables at the last boundary's contents and the six
    arguments as launched. -/
theorem named : θ_run defs (onTc (τ := τ) (main (F := F))) ⟨m, fun _ => 0, ρ⟩ (fun r => ∀ c : Dev nD,
      r.2.mem ((c.tc : Thread nD τ).loc main_v2) = W4 m ρ c (Proc.devRef .tc main_v2)
      ∧ r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v2 (by decide)),
       h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Run

end
-- ==== Proof.LibPlainDot.lean ====
/-
  A plain matrix product read at an index.

  For the dimension numbers of an `M×K` by `K×N` product (contract the left operand's columns with the right operand's
  rows, no batch axis), the left operand's index at result index `(p, q)` and contraction position `k` is `(p, k)` and the
  right operand's is `(k, q)`. So, at the exact values, the vector unit's product into the zero accumulator and the
  host's `dot_general` are both, at `(p, q)`, the sum over `k` of `l (p, k) · r (k, q)`.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- One axis is contracted, of extent `K`. -/
theorem contr_rank : (DotDims.plain M K N).contr.rank = 1 := rfl
theorem contr_size : (DotDims.plain M K N).contr.size ⟨0, by rw [contr_rank]; exact Nat.one_pos⟩ = K := rfl

/-- The contraction positions are the numbers below `K`. -/
abbrev pos : (DotDims.plain M K N).contr.Idx ≃ Fin K := contrEquiv1 (DotDims.plain M K N) K (contr_rank M K N) (contr_size M K N)

/-- On its row axis the left operand follows the result's row. -/
theorem lhsIdx_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its column axis the right operand follows the result's column. -/
theorem rhsIdx_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand is read at `(p, k)`. -/
theorem lhsIdx_eq (p : Fin M) (q : Fin N) (k : Fin K) :
    (DotDims.plain M K N).lhsIdx (ix2 p q) ((pos M K N).symm k) = ix2 p k := by
  have hk := contrEquiv1_symm_val (DotDims.plain M K N) K (contr_rank M K N) (contr_size M K N) k
  funext a
  apply Fin.ext
  match a with
  | ⟨0, _⟩ => exact lhsIdx_row M K N _ _
  | ⟨1, _⟩ => exact ((DotDims.plain M K N).lhsIdx_val_of_single (cl := (1 : Fin 2)) rfl _ _).trans hk

/-- The right operand is read at `(k, q)`. -/
theorem rhsIdx_eq (p : Fin M) (q : Fin N) (k : Fin K) :
    (DotDims.plain M K N).rhsIdx (ix2 p q) ((pos M K N).symm k) = ix2 k q := by
  have hk := contrEquiv1_symm_val (DotDims.plain M K N) K (contr_rank M K N) (contr_size M K N) k
  funext a
  apply Fin.ext
  match a with
  | ⟨0, _⟩ => exact ((DotDims.plain M K N).rhsIdx_val_of_single (cr := (0 : Fin 2)) rfl _ _).trans hk
  | ⟨1, _⟩ => exact rhsIdx_col M K N _ _

variable {M K N}

/-- The sum over contraction positions is the sum over `k < K` of the operands at `(p, k)` and `(k, q)`. -/
theorem sum_contr {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k) : EReal)
      = ∑ k : Fin K, l (ix2 p k) * r (ix2 k q) := by
  rw [← Equiv.sum_comp (pos M K N).symm]
  refine Finset.sum_congr rfl fun k _ => ?_
  rw [lhsIdx_eq, rhsIdx_eq]

/-- The vector unit's product into the zero accumulator, at `(p, q)`. -/
theorem matmul_zero_apply {φ₁ φ₂ : FTy} (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant ⟨2, ![M, N]⟩ .f32 0x00000000#32) (ix2 p q) = ∑ k : Fin K, l (ix2 p k) * r (ix2 k q) :=
  (Ideal.matmul_constant_zero_apply _ prec l r _).trans (sum_contr l r p q)

/-- The host's `dot_general`, at `(p, q)`. -/
theorem dotGeneral_apply {φ₁ φ₂ : FTy} (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply _ prec sched l r _).trans (sum_contr l r p q)

end Cert.PlainDot

end
-- ==== Proof.BlockBody.lean ====
/-
  What one grid step computes, entry by entry.

  A step of either bridge holds a block `x` of 25000 rows of its table, the transposed weights `wt` (128×128) and the
  bias as one row `b` (1×128). It stores `x · wt + b`, the bias row repeated down the block: at row `p`, column `q`,

      Σ_{k < 128} x(p, k) · wt(k, q)  +  b(0, q)

  on the extended reals. The product is accumulated from the zero word, and `0 + s = s` holds for every extended
  real `s`, so no hypothesis on the entries is needed. The two casts in the body are casts of a shape to itself.
-/
import proofs.«168415_g3745211482543_cont_8to1_b_1275_11_alg».proof.Proof.Gen.KernelIdeal.Skeleton
import proofs.«168415_g3745211482543_cont_8to1_b_1275_11_alg».proof.Proof.LibPlainDot
import Idealize.ShloMosaic.Lib.Pipeline.Value
import Idealize.ShloMosaic.Lib.ValueIdx
import Idealize.ShloMosaic.Lib.ValueLayout

noncomputable section

open scoped BigOperators

namespace Cert.KernelIdeal.BlockBody

open Cert.KernelIdeal Cert.KernelIdeal.Gen Idealize.ShloMosaic Idealize.ShloMosaic.ValueIdx

/-- The printed dimension numbers are those of a plain 25000×128 by 128×128 product. -/
theorem dims_plain : dot_S25000x128_S128x128_S25000x128_1_0_0_1_n_n = DotDims.plain 25000 128 128 := rfl

/-- A block times the weights plus the bias row, at `(p, q)`. -/
theorem affine_apply (x : FVec Ideal S25000x128 .f32) (wt : FVec Ideal S128x128 .f32) (b : FVec Ideal S1x128 .f32)
    (p : Fin 25000) (q : Fin 128) :
    addf (matmul dot_S25000x128_S128x128_S25000x128_1_0_0_1_n_n none x wt (constant S25000x128 .f32 0x00000000#32))
        (broadcastTo S25000x128 b broadcasts_S1x128_S25000x128) (ix2 p q)
      = (∑ k : Fin 128, x (ix2 p k) * wt (ix2 k q)) + b (ix2 (0 : Fin 1) q) := by
  rw [addf_apply, dims_plain]
  exact congrArg₂ (· + ·) (Cert.PlainDot.matmul_zero_apply none x wt p q)
    (broadcastTo_1b_ab_apply b broadcasts_S1x128_S25000x128 p q)

/-- The first bridge's stored value at `(p, q)`. -/
theorem pay0_apply (x : Vec Ideal S25000x128 .f32) (wt : Vec Ideal S128x128 .f32) (b : Vec Ideal S1x128 .f32)
    (p : Fin 25000) (q : Fin 128) :
    k0_pay1 (F := Ideal) x wt b (ix2 p q) = (∑ k : Fin 128, x (ix2 p k) * wt (ix2 k q)) + b (ix2 (0 : Fin 1) q) := by
  unfold k0_pay1
  rw [shapeCast_self, shapeCast_self]
  exact affine_apply x wt b p q

/-- The second bridge's stored value at `(p, q)`: the same function. -/
theorem pay1_apply (x : Vec Ideal S25000x128 .f32) (wt : Vec Ideal S128x128 .f32) (b : Vec Ideal S1x128 .f32)
    (p : Fin 25000) (q : Fin 128) :
    k1_pay1 (F := Ideal) x wt b (ix2 p q) = (∑ k : Fin 128, x (ix2 p k) * wt (ix2 k q)) + b (ix2 (0 : Fin 1) q) := by
  unfold k1_pay1
  rw [shapeCast_self, shapeCast_self]
  exact affine_apply x wt b p q

end Cert.KernelIdeal.BlockBody

end
-- ==== Proof.Region0.lean ====
/-
  The first bridge's table after its pipeline, as one function of what the pipeline found.

  The grid has four steps; step `t` reads rows `25000·t … 25000·t + 24999` of the table, the whole of the transposed
  weights and the whole bias row, and writes the same rows of the result. So row `25000·t + p` of the result is the
  step's stored block at row `p`, and by the entry-by-entry form of that block it is `x · wt + r` at that row of the
  arrays the pipeline was entered with. The four blocks tile the 100000 rows (row `i` lies in step `i / 25000`), so the
  whole result array is `affine x wt r`.
-/
import proofs.«168415_g3745211482543_cont_8to1_b_1275_11_alg».proof.Proof.Gen.KernelIdeal.Frame
import proofs.«168415_g3745211482543_cont_8to1_b_1275_11_alg».proof.Proof.BlockBody
import proofs.«168415_g3745211482543_cont_8to1_b_1275_11_alg».proof.Proof.Spec

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat)

-- the TensorCore's buffer contents when the pipeline is entered
variable (V : (c : Dev nD) → (b : Ref sig .tc) → Buf (Elt Ideal) ((c : Thread nD τ).loc b))

theorem zero_off : (![0, 0] : Fin 2 → Nat) = fun _ => 0 := funext fun a => by fin_cases a <;> rfl

/-- What a step stores, at `(p, q)`, from the three blocks it holds. -/
theorem stored_apply (x0 : Vec Ideal S25000x128 .f32) (x1 : Vec Ideal S128x128 .f32) (x2 : Vec Ideal S1x128 .f32)
    (p : Fin 25000) (q : Fin 128) :
    out0_3 (F := Ideal) x0 x1 x2 (ix2 p q) = (∑ k : Fin 128, x0 (ix2 p k) * x1 (ix2 k q)) + x2 (ix2 (0 : Fin 1) q) := by
  unfold out0_3
  rw [View.canon_unit_zero zero_off]
  simp only [View.ld_unit_zero (S := S25000x128) zero_off, View.ld_unit_zero (S := S128x128) zero_off,
    View.ld_unit_zero (S := S1x128) zero_off]
  exact BlockBody.pay0_apply x0 x1 x2 p q

/-- The block indices, decided over the four steps: the table and the result move with the step along the rows; the
    weights and the bias row stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The table's block at step `t` holds rows `25000·t + p` of the table. -/
theorem table_block (c : Dev nD) (t : Fin cfg0.N) (p : Fin 25000) (k : Fin 128) (r : Fin 100000)
    (hr : r.val = t.val * 25000 + p.val) :
    iblk0 V c 0 t (ix2 p k) = V c main_arg0 (ix2 r k) := by
  obtain ⟨e0, e1, -⟩ := block_indices t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 25000 + 1 * p.val = r.val; omega
  | ⟨1, _⟩ => show win0_0.index t (1 : Fin 2) * 128 + 1 * k.val = k.val; omega

/-- The weights' block is the whole array, at every step. -/
theorem weights_block (c : Dev nD) (t : Fin cfg0.N) (k q : Fin 128) :
    iblk0 V c 1 t (ix2 k q) = V c main_v0 (ix2 k q) := by
  obtain ⟨-, -, e0, e1, -⟩ := block_indices t
  show V c main_v0 (((cfg0.win 1).blk t).view.emb (ix2 k q)) = V c main_v0 (ix2 k q)
  refine congrArg (V c main_v0) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias row's block is the whole row, at every step. -/
theorem bias_block (c : Dev nD) (t : Fin cfg0.N) (u : Fin 1) (q : Fin 128) :
    iblk0 V c 2 t (ix2 u q) = V c main_v1 (ix2 u q) := by
  obtain ⟨-, -, -, -, e0, e1, -⟩ := block_indices t
  show V c main_v1 (((cfg0.win 2).blk t).view.emb (ix2 u q)) = V c main_v1 (ix2 u q)
  refine congrArg (V c main_v1) (funext fun a => Fin.ext ?_)
  match a with
  | ⟨0, _⟩ => show win0_2.index t (0 : Fin 2) * 1 + 1 * u.val = u.val; omega
  | ⟨1, _⟩ => show win0_2.index t (1 : Fin 2) * 128 + 1 * q.val = q.val; omega

/-- What step `t` writes back is its block of `x · wt + r` of the arrays the pipeline was entered with. -/
theorem flushed_eq (c : Dev nD) (t : Fin cfg0.N) :
    (dat0 V c).flushed 3 t = ((cfg0.win 3).blk t).view.read (Elt Ideal)
      (Cert.Bridge.affine (V c main_arg0) (V c main_v0) (V c main_v1)) := by
  show (cfg0.win 3).cut (grid0.coords t) ((dat0 V c).after 3 t) = _
  rw [after0_3]
  obtain ⟨-, -, -, -, -, -, e0, e1⟩ := block_indices t
  have ht : t.val < 4 := by have h : t.val < grid0.N := t.isLt; rw [N_0] at h; exact h
  funext j
  obtain ⟨p, q, rfl⟩ : ∃ (p : Fin 25000) (q : Fin 128), j = ix2 p q := ⟨j 0, j 1, eq_ix2 j⟩
  have hp : p.val < 25000 := p.isLt
  have hemb : ((cfg0.win 3).blk t).view.emb (ix2 p q) = ix2 (⟨t.val * 25000 + p.val, by omega⟩ : Fin 100000) q := by
    funext a; apply Fin.ext
    match a with
    | ⟨0, _⟩ => show win0_3.index t (0 : Fin 2) * 25000 + 1 * p.val = t.val * 25000 + p.val; omega
    | ⟨1, _⟩ => show win0_3.index t (1 : Fin 2) * 128 + 1 * q.val = q.val; omega
  show out0_3 (iblk0 V c 0 t) (iblk0 V c 1 t) (iblk0 V c 2 t) (ix2 p q)
    = Cert.Bridge.affine (V c main_arg0) (V c main_v0) (V c main_v1) (((cfg0.win 3).blk t).view.emb (ix2 p q))
  rw [hemb, Cert.Bridge.affine_ix2]
  refine (stored_apply (iblk0 V c 0 t) (iblk0 V c 1 t) (iblk0 V c 2 t) p q).trans ?_
  exact congrArg₂ (· + ·)
    (Finset.sum_congr rfl fun k _ => by
      rw [table_block V c t p k ⟨t.val * 25000 + p.val, by omega⟩ rfl, weights_block V c t k q])
    (bias_block V c t 0 q)

/-- An entry of the result lies in step `t`'s block iff its row does. -/
theorem mem_block (t : Fin cfg0.N) (i : S100000x128.Idx) :
    i ∈ ((cfg0.win 3).blk t).view.set ↔ ∀ a : Fin 2, win0_3.index t a * S25000x128.size a ≤ (i a).val
      ∧ (i a).val < win0_3.index t a * S25000x128.size a + S25000x128.size a := by
  show i ∈ ((View.whole main_v2).slice (win0_3.rect t)).set ↔ _
  rw [View.set_slice_whole, Rect.mem_set_unit]
  exact Iff.rfl

/-- Every entry of the result is written back by some step: row `i` by step `i / 25000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 25000 < grid0.N := by rw [N_0]; omega
  obtain ⟨-, -, -, -, -, -, e0, e1⟩ := block_indices ⟨(i 0).val / 25000, hlt⟩
  refine ⟨⟨(i 0).val / 25000, hlt⟩, flush0_3 _, ?_⟩
  rw [mem_block]
  intro a
  match a with
  | ⟨0, _⟩ =>
    show win0_3.index ⟨(i 0).val / 25000, hlt⟩ (0 : Fin 2) * 25000 ≤ (i 0).val
      ∧ (i 0).val < win0_3.index ⟨(i 0).val / 25000, hlt⟩ (0 : Fin 2) * 25000 + 25000
    rw [e0]; show (i 0).val / 25000 * 25000 ≤ (i 0).val ∧ (i 0).val < (i 0).val / 25000 * 25000 + 25000
    omega
  | ⟨1, _⟩ =>
    show win0_3.index ⟨(i 0).val / 25000, hlt⟩ (1 : Fin 2) * 128 ≤ (i 1).val
      ∧ (i 1).val < win0_3.index ⟨(i 0).val / 25000, hlt⟩ (1 : Fin 2) * 128 + 128
    rw [e1]; omega

/-- The result array when the pipeline is left. -/
theorem result (c : Dev nD) :
    (dat0 V c).arrAt 3 cfg0.N = Cert.Bridge.affine (V c main_arg0) (V c main_v0) (V c main_v1) :=
  (dat0 V c).arrAt_eq_of_cover 3 _ (fun t _ => flushed_eq V c t) covered

end Cert.KernelIdeal.Region0

end
-- ==== Proof.Region1.lean ====
/-
  The second bridge's table after its pipeline, as one function of what the pipeline found.

  The grid has four steps; step `t` reads rows `25000·t … 25000·t + 24999` of the table, the whole of the transposed
  weights and the whole bias row, and writes the same rows of the result. So row `25000·t + p` of the result is the
  step's stored block at row `p`, and by the entry-by-entry form of that block it is `x · wt + r` at that row of the
  arrays the pipeline was entered with. The four blocks tile the 100000 rows (row `i` lies in step `i / 25000`), so the
  whole result array is `affine x wt r`.
-/
import proofs.«168415_g3745211482543_cont_8to1_b_1275_11_alg».proof.Proof.Gen.KernelIdeal.Frame
import proofs.«168415_g3745211482543_cont_8to1_b_1275_11_alg».proof.Proof.BlockBody
import proofs.«168415_g3745211482543_cont_8to1_b_1275_11_alg».proof.Proof.Spec

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

-- the TensorCore's buffer contents when the pipeline is entered
variable (V : (c : Dev nD) → (b : Ref sig .tc) → Buf (Elt Ideal) ((c : Thread nD τ).loc b))

theorem zero_off : (![0, 0] : Fin 2 → Nat) = fun _ => 0 := funext fun a => by fin_cases a <;> rfl

/-- What a step stores, at `(p, q)`, from the three blocks it holds. -/
theorem stored_apply (x0 : Vec Ideal S25000x128 .f32) (x1 : Vec Ideal S128x128 .f32) (x2 : Vec Ideal S1x128 .f32)
    (p : Fin 25000) (q : Fin 128) :
    out1_3 (F := Ideal) x0 x1 x2 (ix2 p q) = (∑ k : Fin 128, x0 (ix2 p k) * x1 (ix2 k q)) + x2 (ix2 (0 : Fin 1) q) := by
  unfold out1_3
  rw [View.canon_unit_zero zero_off]
  simp only [View.ld_unit_zero (S := S25000x128) zero_off, View.ld_unit_zero (S := S128x128) zero_off,
    View.ld_unit_zero (S := S1x128) zero_off]
  exact BlockBody.pay1_apply x0 x1 x2 p q

/-- The block indices, decided over the four steps: the table and the result move with the step along the rows; the
    weights and the bias row stay. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The table's block at step `t` holds rows `25000·t + p` of the table. -/
theorem table_block (c : Dev nD) (t : Fin cfg1.N) (p : Fin 25000) (k : Fin 128) (r : Fin 100000)
    (hr : r.val = t.val * 25000 + p.val) :
    iblk1 V c 0 t (ix2 p k) = V c main_arg1 (ix2 r k) := by
  obtain ⟨e0, e1, -⟩ := block_indices t
  show V c main_arg1 (((cfg1.win 0).blk t).view.emb (ix2 p k)) = V c main_arg1 (ix2 r k)
  refine congrArg (V c main_arg1) (funext fun a => Fin.ext ?_)
  match a with
  | ⟨0, _⟩ => show win1_0.index t (0 : Fin 2) * 25000 + 1 * p.val = r.val; omega
  | ⟨1, _⟩ => show win1_0.index t (1 : Fin 2) * 128 + 1 * k.val = k.val; omega

/-- The weights' block is the whole array, at every step. -/
theorem weights_block (c : Dev nD) (t : Fin cfg1.N) (k q : Fin 128) :
    iblk1 V c 1 t (ix2 k q) = V c main_v3 (ix2 k q) := by
  obtain ⟨-, -, e0, e1, -⟩ := block_indices t
  show V c main_v3 (((cfg1.win 1).blk t).view.emb (ix2 k q)) = V c main_v3 (ix2 k q)
  refine congrArg (V c main_v3) (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- The bias row's block is the whole row, at every step. -/
theorem bias_block (c : Dev nD) (t : Fin cfg1.N) (u : Fin 1) (q : Fin 128) :
    iblk1 V c 2 t (ix2 u q) = V c main_v4 (ix2 u q) := by
  obtain ⟨-, -, -, -, e0, e1, -⟩ := block_indices t
  show V c main_v4 (((cfg1.win 2).blk t).view.emb (ix2 u q)) = V c main_v4 (ix2 u q)
  refine congrArg (V c main_v4) (funext fun a => Fin.ext ?_)
  match a with
  | ⟨0, _⟩ => show win1_2.index t (0 : Fin 2) * 1 + 1 * u.val = u.val; omega
  | ⟨1, _⟩ => show win1_2.index t (1 : Fin 2) * 128 + 1 * q.val = q.val; omega

/-- What step `t` writes back is its block of `x · wt + r` of the arrays the pipeline was entered with. -/
theorem flushed_eq (c : Dev nD) (t : Fin cfg1.N) :
    (dat1 V c).flushed 3 t = ((cfg1.win 3).blk t).view.read (Elt Ideal)
      (Cert.Bridge.affine (V c main_arg1) (V c main_v3) (V c main_v4)) := by
  show (cfg1.win 3).cut (grid1.coords t) ((dat1 V c).after 3 t) = _
  rw [after1_3]
  obtain ⟨-, -, -, -, -, -, e0, e1⟩ := block_indices t
  have ht : t.val < 4 := by have h : t.val < grid1.N := t.isLt; rw [N_1] at h; exact h
  funext j
  obtain ⟨p, q, rfl⟩ : ∃ (p : Fin 25000) (q : Fin 128), j = ix2 p q := ⟨j 0, j 1, eq_ix2 j⟩
  have hp : p.val < 25000 := p.isLt
  have hemb : ((cfg1.win 3).blk t).view.emb (ix2 p q) = ix2 (⟨t.val * 25000 + p.val, by omega⟩ : Fin 100000) q := by
    funext a; apply Fin.ext
    match a with
    | ⟨0, _⟩ => show win1_3.index t (0 : Fin 2) * 25000 + 1 * p.val = t.val * 25000 + p.val; omega
    | ⟨1, _⟩ => show win1_3.index t (1 : Fin 2) * 128 + 1 * q.val = q.val; omega
  show out1_3 (iblk1 V c 0 t) (iblk1 V c 1 t) (iblk1 V c 2 t) (ix2 p q)
    = Cert.Bridge.affine (V c main_arg1) (V c main_v3) (V c main_v4) (((cfg1.win 3).blk t).view.emb (ix2 p q))
  rw [hemb, Cert.Bridge.affine_ix2]
  refine (stored_apply (iblk1 V c 0 t) (iblk1 V c 1 t) (iblk1 V c 2 t) p q).trans ?_
  exact congrArg₂ (· + ·)
    (Finset.sum_congr rfl fun k _ => by
      rw [table_block V c t p k ⟨t.val * 25000 + p.val, by omega⟩ rfl, weights_block V c t k q])
    (bias_block V c t 0 q)

/-- An entry of the result lies in step `t`'s block iff its row does. -/
theorem mem_block (t : Fin cfg1.N) (i : S100000x128.Idx) :
    i ∈ ((cfg1.win 3).blk t).view.set ↔ ∀ a : Fin 2, win1_3.index t a * S25000x128.size a ≤ (i a).val
      ∧ (i a).val < win1_3.index t a * S25000x128.size a + S25000x128.size a := by
  show i ∈ ((View.whole main_v5).slice (win1_3.rect t)).set ↔ _
  rw [View.set_slice_whole, Rect.mem_set_unit]
  exact Iff.rfl

/-- Every entry of the result is written back by some step: row `i` by step `i / 25000`. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hlt : (i 0).val / 25000 < grid1.N := by rw [N_1]; omega
  obtain ⟨-, -, -, -, -, -, e0, e1⟩ := block_indices ⟨(i 0).val / 25000, hlt⟩
  refine ⟨⟨(i 0).val / 25000, hlt⟩, flush1_3 _, ?_⟩
  rw [mem_block]
  intro a
  match a with
  | ⟨0, _⟩ =>
    show win1_3.index ⟨(i 0).val / 25000, hlt⟩ (0 : Fin 2) * 25000 ≤ (i 0).val
      ∧ (i 0).val < win1_3.index ⟨(i 0).val / 25000, hlt⟩ (0 : Fin 2) * 25000 + 25000
    rw [e0]; show (i 0).val / 25000 * 25000 ≤ (i 0).val ∧ (i 0).val < (i 0).val / 25000 * 25000 + 25000
    omega
  | ⟨1, _⟩ =>
    show win1_3.index ⟨(i 0).val / 25000, hlt⟩ (1 : Fin 2) * 128 ≤ (i 1).val
      ∧ (i 1).val < win1_3.index ⟨(i 0).val / 25000, hlt⟩ (1 : Fin 2) * 128 + 128
    rw [e1]; omega

/-- The result array when the pipeline is left. -/
theorem result (c : Dev nD) :
    (dat1 V c).arrAt 3 cfg1.N = Cert.Bridge.affine (V c main_arg1) (V c main_v3) (V c main_v4) :=
  (dat1 V c).arrAt_eq_of_cover 3 _ (fun t _ => flushed_eq V c t) covered

end Cert.KernelIdeal.Region1

end
-- ==== Proof.KernelValue.lean ====
/-
  The kernel's two results are the two bridges.

  The last boundary's contents at a result table are what that table's pipeline left there: the second pipeline's result
  directly; the first pipeline's result because nothing after the first pipeline writes it (the second pair of host
  operations writes only its own transposed weights and bias row, and the second pipeline's arrays are others).

  What each pipeline was entered with is read back to the launch memory: its table is an argument nobody writes, its
  weights are the transpose of the weights argument, its bias row the bias argument recast as 1×128. With those, "the
  result is `x · wt + r`" (the two pipeline modules) becomes "the result is `x · wᵀ + b`".
-/
import proofs.«168415_g3745211482543_cont_8to1_b_1275_11_alg».proof.Proof.Gen.KernelIdeal.Frame
import proofs.«168415_g3745211482543_cont_8to1_b_1275_11_alg».proof.Proof.Region0
import proofs.«168415_g3745211482543_cont_8to1_b_1275_11_alg».proof.Proof.Region1
import Idealize.ShloMosaic.Lib.StableHlo.Run

noncomputable section

namespace Cert.KernelIdeal.KernelValue

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg)

/-! ## What the first pipeline is entered with -/

theorem entry0_table (c : Dev nD) : V1 m ρ c main_arg0 = m ((c : Thread nD τ).loc main_arg0) := by
  show StableHlo.after hostOps0 (W0 m ρ c) (Proc.devRef .tc main_arg0) = _
  after_results

theorem entry0_weights (c : Dev nD) :
    V1 m ρ c main_v0 = transpose S128x128 [1, 0] (m ((c : Thread nD τ).loc main_arg2)) Facts₀.transposes_S128x128_S128x128_1_0 := by
  show StableHlo.after hostOps0 (W0 m ρ c) (Proc.devRef .tc main_v0) = _
  after_results

theorem entry0_bias (c : Dev nD) :
    V1 m ρ c main_v1 = shapeCast S1x128 (m ((c : Thread nD τ).loc main_arg3)) Facts₀.shapeCasts_S128_S1x128 := by
  show StableHlo.after hostOps0 (W0 m ρ c) (Proc.devRef .tc main_v1) = _
  after_results
  rfl

/-! ## What the second pipeline is entered with: the first pipeline and the first host operations leave the second
    bridge's arguments alone -/

theorem mid_table (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)

theorem mid_weights (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)

theorem mid_bias (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

theorem entry1_table (c : Dev nD) : V3 m ρ c main_arg1 = m ((c : Thread nD τ).loc main_arg1) := by
  show StableHlo.after hostOps1 (W2 m ρ c) (Proc.devRef .tc main_arg1) = _
  after_results
  exact mid_table m ρ c

theorem entry1_weights (c : Dev nD) :
    V3 m ρ c main_v3 = transpose S128x128 [1, 0] (m ((c : Thread nD τ).loc main_arg4)) Facts₀.transposes_S128x128_S128x128_1_0 := by
  show StableHlo.after hostOps1 (W2 m ρ c) (Proc.devRef .tc main_v3) = _
  after_results
  rw [mid_weights]

theorem entry1_bias (c : Dev nD) :
    V3 m ρ c main_v4 = shapeCast S1x128 (m ((c : Thread nD τ).loc main_arg5)) Facts₀.shapeCasts_S128_S1x128 := by
  show StableHlo.after hostOps1 (W2 m ρ c) (Proc.devRef .tc main_v4) = _
  after_results
  rw [mid_bias]
  rfl

/-! ## The last boundary at the two results -/

/-- The first result is as the first pipeline left it. -/
theorem last_book (c : Dev nD) : W4 m ρ c (Proc.devRef .tc main_v2) = (dat0 (V1 m ρ) c).arrAt 3 cfg0.N :=
  (W4_of_ne m ρ c main_v2 (by decide)).trans <|
    (show StableHlo.after hostOps1 (W2 m ρ c) (Proc.devRef .tc main_v2) = W2 m ρ c (Proc.devRef .tc main_v2) by
      after_results).trans (W2_arr m ρ c 3)

/-- The second result is as the second pipeline left it. -/
theorem last_movie (c : Dev nD) : W4 m ρ c (Proc.devRef .tc main_v5) = (dat1 (V3 m ρ) c).arrAt 3 cfg1.N :=
  W4_arr m ρ c 3

/-! ## The two results -/

/-- The first result table is the bridge of the first table, weights and bias. -/
theorem book (c : Dev nD) :
    W4 m ρ c (Proc.devRef .tc main_v2)
      = Cert.Bridge.linear (m ((c : Thread nD τ).loc main_arg0)) (m ((c : Thread nD τ).loc main_arg2)) (m ((c : Thread nD τ).loc main_arg3)) :=
  calc W4 m ρ c (Proc.devRef .tc main_v2)
    _ = (dat0 (V1 m ρ) c).arrAt 3 cfg0.N := last_book m ρ c
    _ = Cert.Bridge.affine (V1 m ρ c main_arg0) (V1 m ρ c main_v0) (V1 m ρ c main_v1) := Region0.result (V1 m ρ) c
    _ = Cert.Bridge.affine (m ((c : Thread nD τ).loc main_arg0))
          (transpose S128x128 [1, 0] (m ((c : Thread nD τ).loc main_arg2)) Facts₀.transposes_S128x128_S128x128_1_0)
          (shapeCast S1x128 (m ((c : Thread nD τ).loc main_arg3)) Facts₀.shapeCasts_S128_S1x128) := by
        rw [entry0_table, entry0_weights, entry0_bias]
    _ = _ := Cert.Bridge.affine_transpose_row _ _ _ _ _

/-- The second result table is the bridge of the second table, weights and bias. -/
theorem movie (c : Dev nD) :
    W4 m ρ c (Proc.devRef .tc main_v5)
      = Cert.Bridge.linear (m ((c : Thread nD τ).loc main_arg1)) (m ((c : Thread nD τ).loc main_arg4)) (m ((c : Thread nD τ).loc main_arg5)) :=
  calc W4 m ρ c (Proc.devRef .tc main_v5)
    _ = (dat1 (V3 m ρ) c).arrAt 3 cfg1.N := last_movie m ρ c
    _ = Cert.Bridge.affine (V3 m ρ c main_arg1) (V3 m ρ c main_v3) (V3 m ρ c main_v4) := Region1.result (V3 m ρ) c
    _ = Cert.Bridge.affine (m ((c : Thread nD τ).loc main_arg1))
          (transpose S128x128 [1, 0] (m ((c : Thread nD τ).loc main_arg4)) Facts₀.transposes_S128x128_S128x128_1_0)
          (shapeCast S1x128 (m ((c : Thread nD τ).loc main_arg5)) Facts₀.shapeCasts_S128_S1x128) := by
        rw [entry1_table, entry1_weights, entry1_bias]
    _ = _ := Cert.Bridge.affine_transpose_row _ _ _ _ _

end Cert.KernelIdeal.KernelValue

end
-- ==== Proof.lean ====
/-
  Two linear bridges, `x · wᵀ + b` over two 100000×128 tables, computed by a kernel in blocks of 25000 rows and by a
  reference in one product each: the two programs agree on the extended reals.

  * The specification is `Cert.Bridge.linear x w b (i, j) = Σ_k x(i, k) · w(j, k) + b(j)` (Proof/Spec.lean).
  * The reference's two results are that function of its arguments, read one host operation at a time
    (Proof/Reference.lean over the generated read-at-an-index lemmas).
  * The kernel stores, at each of four steps per table, a block of `x · wt + r` where `wt` is the weights transposed on
    the host and `r` the bias recast as a row (Proof/BlockBody.lean: the product into the zero accumulator is the plain
    sum, the row broadcast repeats `r`); the four blocks tile the table (Proof/Region0.lean, Proof/Region1.lean); the run
    ends with each result table at what its pipeline left (Proof/KernelRun.lean, Proof/KernelValue.lean), and transposing
    back gives the specification.
  Both sides add the same products in the same association, so no entry needs to be finite: the precondition is not used
  beyond the frames. The idealization rewrote nothing, so its conjunct is `True`.
-/
import proofs.«168415_g3745211482543_cont_8to1_b_1275_11_alg».proof.Defs
import proofs.«168415_g3745211482543_cont_8to1_b_1275_11_alg».proof.Proof.Gen.Kernel
import proofs.«168415_g3745211482543_cont_8to1_b_1275_11_alg».proof.Proof.Gen.Kernel.Frame
import proofs.«168415_g3745211482543_cont_8to1_b_1275_11_alg».proof.Proof.Gen.KernelIdeal
import proofs.«168415_g3745211482543_cont_8to1_b_1275_11_alg».proof.Proof.Gen.KernelIdeal.Frame
import proofs.«168415_g3745211482543_cont_8to1_b_1275_11_alg».proof.Proof.Gen.ReferenceIdeal
import proofs.«168415_g3745211482543_cont_8to1_b_1275_11_alg».proof.Proof.Gen.ReferenceIdeal.Run
import proofs.«168415_g3745211482543_cont_8to1_b_1275_11_alg».proof.Proof.Gen.ReferenceIdeal.Read
import proofs.«168415_g3745211482543_cont_8to1_b_1275_11_alg».proof.Proof.Gen.Pre_finite_inputs
import proofs.«168415_g3745211482543_cont_8to1_b_1275_11_alg».proof.Proof.Reference
import proofs.«168415_g3745211482543_cont_8to1_b_1275_11_alg».proof.Proof.KernelRun
import proofs.«168415_g3745211482543_cont_8to1_b_1275_11_alg».proof.Proof.KernelValue
import Idealize.ShloMosaic.Adequacy
import Idealize.ShloMosaic.Init

noncomputable section

namespace Cert.Proof

open Idealize.ShloMosaic Idealize.ShloMosaic.TcCoe Idealize.SL.Sem

namespace Claims

/-- The kernel as printed runs and leaves its arguments alone. -/
theorem frame_kernel : @Cert.frame_Kernel Cert.Kernel.Gen.facts Cert.Pre_finite_inputs.Gen.facts :=
  fun m ρ _ => Cert.Kernel.Gen.frame m ρ

/-- So does the kernel read on the extended reals. -/
theorem frame_kernel_ideal : @Cert.frame_KernelIdeal Cert.KernelIdeal.Gen.facts Cert.Pre_finite_inputs.Gen.facts :=
  fun m ρ _ => Cert.KernelIdeal.Gen.frame m ρ

/-- The reference is a line of host operations: its run, with the results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- From memories agreeing on the six arguments, both programs end with each result table at the bridge of its table,
    weights and bias. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Bridge.linear (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
    fun c => Cert.Bridge.linear (m ((c.tc : Thread Cert.KernelIdeal.nD Cert.KernelIdeal.τ).loc Cert.KernelIdeal.main_arg1))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.book m ρ c),
        (h c).2.1.trans (Cert.KernelIdeal.KernelValue.movie m ρ c), (h c).2.2⟩)
      (Cert.KernelIdeal.Run.named (F := Ideal) m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v4_eq, Cert.ReferenceIdeal.RefValue.book_eq,
        (hagree c).1, (hagree c).2.2.1, (hagree c).2.2.2.1]
    · rw [(h c).2.1, Cert.ReferenceIdeal.Read.val_main_v9_eq, Cert.ReferenceIdeal.RefValue.movie_eq,
        (hagree c).2.1, (hagree c).2.2.2.2.1, (hagree c).2.2.2.2.2]

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, trivial, Claims.algebraic⟩

end Cert.Proof

end
